-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S64x1024x512 : Shape := ⟨3, ![64, 1024, 512]⟩
abbrev S64x1024 : Shape := ⟨2, ![64, 1024]⟩
abbrev S512x256 : Shape := ⟨2, ![512, 256]⟩
abbrev S256x256 : Shape := ⟨2, ![256, 256]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S64x1024x512 : S_.BroadcastsInDim S64x1024x512 (![] : Fin 0 → Fin S64x1024x512.rank)
  reducesTo_S64x1024x512_S_d0_1_2 : S64x1024x512.ReducesTo [0, 1, 2] S_
  bcast_S_S64x1024 : S_.BroadcastsInDim S64x1024 (![] : Fin 0 → Fin S64x1024.rank)
  reducesTo_S64x1024_S_d0_1 : S64x1024.ReducesTo [0, 1] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S512x256 .f32) (main_arg8 : FVec F S256x256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  main_v43

def fn_part1 {F : FTy → Type} [FloatOps F] (main_arg4 : FVec F S256x256 .f32) (main_arg5 : FVec F S512x256 .f32) (main_arg6 : FVec F S256x256 .f32) (main_arg7 : FVec F S512x256 .f32) (main_arg8 : FVec F S256x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_v33

def fn {F : FTy → Type} [FloatOps F] (main_arg0 : FVec F S64x1024x256 .f32) (main_arg1 : FVec F S64x1024x512 .f32) (main_arg2 : FVec F S64x1024 .f32) (main_arg3 : FVec F S512x256 .f32) (main_arg4 : FVec F S256x256 .f32) (main_arg5 : FVec F S512x256 .f32) (main_arg6 : FVec F S256x256 .f32) (main_arg7 : FVec F S512x256 .f32) (main_arg8 : FVec F S256x256 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S64x1024x512 .f32 := Host.absf main_arg1
  let main_cst_0 : FVec F S_ .f32 := constant S_ .f32 0x7F800000#32
  let main_v5 : FVec F S64x1024x512 .f32 := broadcastInDim S64x1024x512 ![] bcast_S_S64x1024x512 main_cst_0
  let main_v6 : IVec S64x1024x512 1 := cmpf .olt main_v4 main_v5
  let main_c_1 : IVec S_ 1 := constantI S_ 1 1#1
  let main_v7 : IVec S_ 1 := (fun x v => Host.reduce IntOp.andi x v reducesTo_S64x1024x512_S_d0_1_2 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_v13 main_v16
-- ==== Kernel.lean ====
abbrev S64x1024x256 : Shape := ⟨3, ![64, 1024, 256]⟩
abbrev S64x1024x512 : Shape := ⟨3, ![64, 1024, 512]⟩
abbrev S64x1024 : Shape := ⟨2, ![64, 1024]⟩
abbrev S512x256 : Shape := ⟨2, ![512, 256]⟩
abbrev S256x256 : Shape := ⟨2, ![256, 256]⟩
abbrev S65536x256 : Shape := ⟨2, ![65536, 256]⟩
abbrev S65536x512 : Shape := ⟨2, ![65536, 512]⟩
abbrev S65536x1 : Shape := ⟨2, ![65536, 1]⟩
abbrev S512x768 : Shape := ⟨2, ![512, 768]⟩
abbrev S256x512 : Shape := ⟨2, ![256, 512]⟩
abbrev S2048x256 : Shape := ⟨2, ![2048, 256]⟩
abbrev S2048x512 : Shape := ⟨2, ![2048, 512]⟩
abbrev S2048x1 : Shape := ⟨2, ![2048, 1]⟩
abbrev S2048x768 : Shape := ⟨2, ![2048, 768]⟩

abbrev nBuf : Space → Nat
  | .hbm => 19
  | .vmem => 11
  | .smem => 0
  | _ => 0

abbrev bufTy : (tb : Table) → Fin (tcTables nBuf tb) → BufTy
  | .hbm, ⟨0, _⟩ => ⟨S64x1024x256, .f32⟩
  | .hbm, ⟨1, _⟩ => ⟨S64x1024x512, .f32⟩
  | .hbm, ⟨2, _⟩ => ⟨S64x1024, .f32⟩
  | .hbm, ⟨3, _⟩ => ⟨S512x256, .f32⟩
  | .hbm, ⟨4, _⟩ => ⟨S256x256, .f32⟩
  | .hbm, ⟨5, _⟩ => ⟨S512x256, .f32⟩
  | .hbm, ⟨6, _⟩ => ⟨S256x256, .f32⟩
  | .hbm, ⟨7, _⟩ => ⟨S512x256, .f32⟩
  | .hbm, ⟨8, _⟩ => ⟨S256x256, .f32⟩
  | .hbm, ⟨9, _⟩ => ⟨S65536x256, .f32⟩
  | .hbm, ⟨10, _⟩ => ⟨S65536x512, .f32⟩
  | .hbm, ⟨11, _⟩ => ⟨S65536x1, .f32⟩
  | .hbm, ⟨12, _⟩ => ⟨S512x768, .f32⟩
  | .hbm, ⟨13, _⟩ => ⟨S512x768, .bf16⟩
  | .hbm, ⟨14, _⟩ => ⟨S256x512, .f32⟩
  | .hbm, ⟨15, _⟩ => ⟨S256x512, .bf16⟩
  | .hbm, ⟨16, _⟩ => ⟨S256x256, .bf16⟩
  | .hbm, ⟨17, _⟩ => ⟨S65536x256, .f32⟩
  | .hbm, ⟨18, _⟩ => ⟨S64x1024x256, .f32⟩
  | .local _ .vmem, ⟨0, _⟩ => ⟨S2048x256, .f32⟩
  | .local _ .vmem, ⟨1, _⟩ => ⟨S2048x256, .f32⟩
  | .local _ .vmem, ⟨2, _⟩ => ⟨S2048x512, .f32⟩
  | .local _ .vmem, ⟨3, _⟩ => ⟨S2048x512, .f32⟩
  | .local _ .vmem, ⟨4, _⟩ => ⟨S2048x1, .f32⟩
  | .local _ .vmem, ⟨5, _⟩ => ⟨S2048x1, .f32⟩
  | .local _ .vmem, ⟨6, _⟩ => ⟨S512x768, .bf16⟩
  | .local _ .vmem, ⟨7, _⟩ => ⟨S256x512, .bf16⟩
  | .local _ .vmem, ⟨8, _⟩ => ⟨S256x256, .bf16⟩
  | .local _ .vmem, ⟨9, _⟩ => ⟨S2048x256, .f32⟩
  | .local _ .vmem, ⟨10, _⟩ => ⟨S2048x256, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x1024x256_S65536x256 : S64x1024x256.ShapeCasts S65536x256
  shapeCasts_S64x1024x512_S65536x512 : S64x1024x512.ShapeCasts S65536x512
  shapeCasts_S64x1024_S65536x1 : S64x1024.ShapeCasts S65536x1
  concatenates_S512x256_S512x256_S512x256_S512x768_d1 : Shape.Concatenates [S512x256, S512x256, S512x256] S512x768 1
  bitsLt_bf16_f32 : FTy.bits .bf16 < FTy.bits .f32
  concatenates_S256x256_S256x256_S256x512_d1 : Shape.Concatenates [S256x256, S256x256] S256x512 1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2048x768_o0_0_S2048x256 : S2048x768.Slices ![0, 0] S2048x256
  slices_S2048x512_o0_0_S2048x256 : S2048x512.Slices ![0, 0] S2048x256
  slices_S2048x768_o0_256_S2048x256 : S2048x768.Slices ![0, 256] S2048x256
  slices_S2048x512_o0_256_S2048x256 : S2048x512.Slices ![0, 256] S2048x256
  slices_S2048x768_o0_512_S2048x256 : S2048x768.Slices ![0, 512] S2048x256
  broadcasts_S2048x1_S2048x256 : S2048x1.Broadcasts S2048x256
  shapeCasts_S65536x256_S64x1024x256 : S65536x256.ShapeCasts S64x1024x256
  dot_S2048x512_S512x768_S2048x768_1_0_0_1_n_n_wf : DotDims.WF S2048x512 S512x768 S2048x768 [1] [0] [0] [1] [] []
  dot_S2048x256_S256x512_S2048x512_1_0_0_1_n_n_wf : DotDims.WF S2048x256 S256x512 S2048x512 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .f32 = 32 ∨ (Rect.block (s := S65536x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S512x768.size a
  hwx0_3 : ∀ i : grid0.Coords, EltTy.bits .bf16 = 32 ∨ (Rect.block (s := S512x768) S512x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S65536x256.size a
  hwx0_6 : ∀ i : grid0.Coords, EltTy.bits .f32 = 32 ∨ (Rect.block (s := S65536x256) S2048x256.size (cc0_transform_6 i) (hinb0_6 i)).WholeWords (EltTy.packing .f32)

variable [Facts₀]

def dot_S2048x512_S512x768_S2048x768_1_0_0_1_n_n : DotDims S2048x512 S512x768 S2048x768 where
  lhsContracting := [1]
  rhsContracting := [0]
  lhsNonContracting := [0]
  rhsNonContracting := [1]
  lhsBatch := []
  rhsBatch := []
  wf := dot_S2048x512_S512x768_S2048x768_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S64x1024x512 : Shape := ⟨3, ![64, 1024, 512]⟩
abbrev S64x1024 : Shape := ⟨2, ![64, 1024]⟩
abbrev S512x256 : Shape := ⟨2, ![512, 256]⟩
abbrev S256x256 : Shape := ⟨2, ![256, 256]⟩
abbrev S65536x256 : Shape := ⟨2, ![65536, 256]⟩
abbrev S65536x512 : Shape := ⟨2, ![65536, 512]⟩
abbrev S_ : Shape := ⟨0, ![]⟩
abbrev S65536x1 : Shape := ⟨2, ![65536, 1]⟩

abbrev nBuf : Space → Nat
  | .hbm => 48
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x1024x512, .f32⟩
  | .hbm, ⟨2, _⟩ => ⟨S64x1024, .f32⟩
  | .hbm, ⟨3, _⟩ => ⟨S512x256, .f32⟩
  | .hbm, ⟨4, _⟩ => ⟨S256x256, .f32⟩
  | .hbm, ⟨5, _⟩ => ⟨S512x256, .f32⟩
  | .hbm, ⟨6, _⟩ => ⟨S256x256, .f32⟩
  | .hbm, ⟨7, _⟩ => ⟨S512x256, .f32⟩
  | .hbm, ⟨8, _⟩ => ⟨S256x256, .f32⟩
  | .hbm, ⟨9, _⟩ => ⟨S65536x256, .f32⟩
  | .hbm, ⟨10, _⟩ => ⟨S65536x512, .f32⟩
  | .hbm, ⟨11, _⟩ => ⟨S65536x256, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S65536x256, .f32⟩
  | .hbm, ⟨16, _⟩ => ⟨S_, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S_, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S65536x256, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S65536x1, .f32⟩
  | .hbm, ⟨45, _⟩ => ⟨S65536x256, .f32⟩
  | .hbm, ⟨46, _⟩ => ⟨S65536x256, .f32⟩
  | .hbm, ⟨47, _⟩ => ⟨S64x1024x256, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  shapeCasts_S64x1024x256_S65536x256 : S64x1024x256.ShapeCasts S65536x256
  shapeCasts_S64x1024x512_S65536x512 : S64x1024x512.ShapeCasts S65536x512
  bcast_S_S65536x256 : S_.BroadcastsInDim S65536x256 (![] : Fin 0 → Fin S65536x256.rank)
  shapeCasts_S64x1024_S65536x1 : S64x1024.ShapeCasts S65536x1
  bcast_S65536x1_S65536x256_0_1 : S65536x1.BroadcastsInDim S65536x256 (![0, 1] : Fin 2 → Fin S65536x256.rank)
  shapeCasts_S65536x256_S64x1024x256 : S65536x256.ShapeCasts S64x1024x256
  dot_S65536x512_S512x256_S65536x256_1_0_0_1_n_n_wf : DotDims.WF S65536x512 S512x256 S65536x256 [1] [0] [0] [1] [] []
  dot_S65536x256_S256x256_S65536x256_1_0_0_1_n_n_wf : DotDims.WF S65536x256 S256x256 S65536x256 [1] [0] [0] [1] [] []

variable [Facts₀]

def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.KernelFrame.lean ====
/-
  The run of the program around its one launch, read as a frame: every fair execution ends, nothing faults,
  the nine argument arrays end as they began, and the array the launch writes ends at the blocks the body
  stored, one per grid point.

  The program is a stretch of host operations (three reshapes, two concatenations of weight matrices along
  their columns, three changes of format), the launch over 32 grid points, and one reshape of the result.
  At each grid point the body loads one block of 2048 rows of the state, of the messages and of the mask
  column, and the three weight arrays whole; it stores ONE value, a function of those six loads, over the
  whole output block.  So after the body the output's staging buffer holds that value, each input's buffer
  what it held, and the launch theorem of the pipeline library applies with these proof data.
-/
import proofs.«106987_j28028956573797_2_alg».proof.Proof.Gen.Kernel.Launch
import proofs.«106987_j28028956573797_2_alg».proof.Proof.Gen.Kernel.Skeleton
import proofs.«106987_j28028956573797_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- What core `c`'s buffers hold when the launch is entered: the launch memory after the eight host operations
    before it. -/
abbrev entryVal (c : Dev nD) : Valuation τ sig (Elt F) := StableHlo.after (List.flatten [hostOps0]) (fun b => m (c, b))
/-- The same, read at one buffer of the core. -/
abbrev entry (c : Dev nD) (b : Ref sig .tc) : Buf (Elt F) ((c : Thread nD τ).loc b) := entryVal m c (Proc.devRef .tc b)

/-- None of the host operations allocates a buffer. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- The program is: the operations before the launch, the launch, the operations after it. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape after the launch touches only the launch's result array and its own result. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop
/-- It writes its own result only, which is no array of the launch. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- An argument array is written by no host operation before the launch (each writes its own result buffer):
    the launch finds it as the program was started with. -/
theorem entry_arg (c : Dev nD) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    entry m c b = m ((c : Thread nD τ).loc b) := by
  rcases hb with rfl | rfl | rfl | rfl | rfl | rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nary_writes, StableHlo.unary_writes, StableHlo.binary_writes, StableHlo.reshape_writes, Finset.mem_singleton]
      repeat' apply And.intro
      all_goals exact StableHlo.devRef_ne_of_ne (by decide)))

/-! ## The blocks -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Nor does the reshape after the launch write an argument array, and no argument array is an array of the launch:
    each ends as the program was started with. -/
theorem final_arg (dats : (p : Fin _) → (c : Dev nD) → Dat τ (Elt F) Unit ℕ (UR sig nD τ) ℕ (cfgs p) c) (c : Dev nD) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    Pipeline.afterTail₀ cfgs dats 0 (entryVal m) [hostOps1] c b = m ((c : Thread nD τ).loc b) := by
  unfold Pipeline.afterTail₀
  have hw : ∀ w, Pipeline.arrRef spec0 w ≠ b := by
    rcases hb with rfl | rfl | rfl | rfl | rfl | rfl | rfl | rfl | rfl <;> decide
  have hn : ∀ op ∈ (List.flatten [hostOps1] : List (HloOp τ sig (Elt F))), Proc.devRef .tc b ∉ op.writes := by
    rcases hb with rfl | rfl | rfl | rfl | rfl | rfl | rfl | rfl | rfl
    all_goals
      exact List.forall_iff_forall_mem.mp (by
        simp only [hostOps1, List.flatten_cons, List.flatten_nil, List.append_nil, List.cons_append,
          List.nil_append, List.Forall, StableHlo.reshape_writes, Finset.mem_singleton]
        exact StableHlo.devRef_ne_of_ne (by decide))
  rw [StableHlo.after_of_forall_not_mem (b := Proc.devRef .tc b) _ _ hn,
    Pipeline.withArrays_of_ne _ c (entryVal m c) _ b hw]
  exact entry_arg m c b hb

/-- An input window's current staging buffer holds the window's block at every grid point, whether the pipeline fetched
    it there or not (an unfetched window's block index has not moved since it was fetched), provided the body leaves
    the buffer as it found it. One statement per input window. -/
theorem holds_block_0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem holds_block_1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem holds_block_2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem holds_block_3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem holds_block_4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem holds_block_5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The frame, from a run of the launch -/

/-- From a run that ends with every buffer outside the launch at what the host operations after it leave: each argument
    array ends as it began. -/
theorem frame_of_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans (final_arg m dats c main_arg0 (by simp)),
     ((h c).2 main_arg1 (Pipeline.mem_restRefs_of main_arg1 (by decide) (by decide))).trans (final_arg m dats c main_arg1 (by simp)),
     ((h c).2 main_arg2 (Pipeline.mem_restRefs_of main_arg2 (by decide) (by decide))).trans (final_arg m dats c main_arg2 (by simp)),
     ((h c).2 main_arg3 (Pipeline.mem_restRefs_of main_arg3 (by decide) (by decide))).trans (final_arg m dats c main_arg3 (by simp)),
     ((h c).2 main_arg4 (Pipeline.mem_restRefs_of main_arg4 (by decide) (by decide))).trans (final_arg m dats c main_arg4 (by simp)),
     ((h c).2 main_arg5 (Pipeline.mem_restRefs_of main_arg5 (by decide) (by decide))).trans (final_arg m dats c main_arg5 (by simp)),
     ((h c).2 main_arg6 (Pipeline.mem_restRefs_of main_arg6 (by decide) (by decide))).trans (final_arg m dats c main_arg6 (by simp)),
     ((h c).2 main_arg7 (Pipeline.mem_restRefs_of main_arg7 (by decide) (by decide))).trans (final_arg m dats c main_arg7 (by simp)),
     ((h c).2 main_arg8 (Pipeline.mem_restRefs_of main_arg8 (by decide) (by decide))).trans (final_arg m dats c main_arg8 (by simp))⟩) h

/-! ## What the body stores -/

/-- The whole of each staging buffer, as the rectangle the body's loads and its one store go through. -/
abbrev boxH : Rect S2048x256 := Rect.unit (s := S2048x256) ![0, 0] S2048x256.size inb_S2048x256_S2048x256_0_0
abbrev boxM : Rect S2048x512 := Rect.unit (s := S2048x512) ![0, 0] S2048x512.size inb_S2048x512_S2048x512_0_0
abbrev boxK : Rect S2048x1 := Rect.unit (s := S2048x1) ![0, 0] S2048x1.size inb_S2048x1_S2048x1_0_0
abbrev boxWm : Rect S512x768 := Rect.unit (s := S512x768) ![0, 0] S512x768.size inb_S512x768_S512x768_0_0
abbrev boxUh : Rect S256x512 := Rect.unit (s := S256x512) ![0, 0] S256x512.size inb_S256x512_S256x512_0_0
abbrev boxU : Rect S256x256 := Rect.unit (s := S256x256) ![0, 0] S256x256.size inb_S256x256_S256x256_0_0

/-- The output window's staging buffer after the body, from the six input blocks: the one stored value, laid over the
    whole buffer. -/
def stored (h : Vec F S2048x256 .f32) (msg : Vec F S2048x512 .f32) (k : Vec F S2048x1 .f32)
    (wm : Vec F S512x768 .bf16) (uh : Vec F S256x512 .bf16) (u : Vec F S256x256 .bf16) : Vec F S2048x256 .f32 :=
  View.canon [⟨boxH, k0_pay1 (View.ld h boxH) (View.ld k boxK) (View.ld msg boxM) (View.ld wm boxWm) (View.ld uh boxUh) (View.ld u boxU)⟩]

/-- The one store covers the buffer. -/
theorem stored_covers (p0 : Vec F S2048x256 .f32) (y : S2048x256.Idx) :
    ∃ pc ∈ ([⟨boxH, p0⟩] : List (View.Piece (Elt F) S2048x256 .f32)), y ∈ pc.1.set :=
  View.cover_of_tiled [⟨boxH, p0⟩] S2048x256.size (by rfl) y

/-! ## The body -/

set_option maxHeartbeats 1000000 in
/-- The body, on whole staging buffers — the six inputs' at contents h, msg, k, wm, uh, u, the output's at anything —
    runs to its end, leaves each input's buffer as it was and the output's at the stored value. -/
theorem body_runs (c : Dev nD) (E : Set ℕ) (i : grid0.Coords)
    (arg1 : Memref sig .tc .vmem S2048x256 .f32) (harg1 : arg1.IsWhole) (arg2 : Memref sig .tc .vmem S2048x512 .f32) (harg2 : arg2.IsWhole)
    (arg3 : Memref sig .tc .vmem S2048x1 .f32) (harg3 : arg3.IsWhole) (arg4 : Memref sig .tc .vmem S512x768 .bf16) (harg4 : arg4.IsWhole)
    (arg5 : Memref sig .tc .vmem S256x512 .bf16) (harg5 : arg5.IsWhole) (arg6 : Memref sig .tc .vmem S256x256 .bf16) (harg6 : arg6.IsWhole)
    (arg7 : Memref sig .tc .vmem S2048x256 .f32) (harg7 : arg7.IsWhole)
    (h : Vec F S2048x256 .f32) (msg : Vec F S2048x512 .f32) (k : Vec F S2048x1 .f32)
    (wm : Vec F S512x768 .bf16) (uh : Vec F S256x512 .bf16) (u : Vec F S256x256 .bf16) (K : PUnit → sProp 𝕄) :
    iprop(owns (c : Thread nD τ) arg1 fullShare h ∗ owns (c : Thread nD τ) arg2 fullShare msg ∗ owns (c : Thread nD τ) arg3 fullShare k
        ∗ owns (c : Thread nD τ) arg4 fullShare wm ∗ owns (c : Thread nD τ) arg5 fullShare uh ∗ owns (c : Thread nD τ) arg6 fullShare u
        ∗ (∃ d, owns (c : Thread nD τ) arg7 fullShare d)
        ∗ (iprop(owns (c : Thread nD τ) arg1 fullShare h ∗ owns (c : Thread nD τ) arg2 fullShare msg ∗ owns (c : Thread nD τ) arg3 fullShare k
            ∗ owns (c : Thread nD τ) arg4 fullShare wm ∗ owns (c : Thread nD τ) arg5 fullShare uh ∗ owns (c : Thread nD τ) arg6 fullShare u
            ∗ owns (c : Thread nD τ) arg7 fullShare (stored h msg k wm uh u)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_covers _)

/-! ## The proof data of the launch -/

/-- On core `c`: the arrays as the launch finds them; after the body at grid point `t` each input's buffer still at its
    block, the output's at the stored value of the six input blocks; nothing else is touched, nothing is owed. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => stored (blockAt m c 0 t) (blockAt m c 1 t) (blockAt m c 2 t) (blockAt m c 3 t) (blockAt m c 4 t) (blockAt m c 5 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t
    = stored (blockAt m c 0 t) (blockAt m c 1 t) (blockAt m c 2 t) (blockAt m c 3 t) (blockAt m c 4 t) (blockAt m c 5 t) := by dsimp only [dats]

theorem before_0 (c : Dev nD) (t : Fin cfg0.N) (d) : (dats m 0 c).before 0 t d = blockAt m c 0 t :=
  holds_block_0 m (dats m 0 c) (dats_A m c 0) (after_0 m c) t d
theorem before_1 (c : Dev nD) (t : Fin cfg0.N) (d) : (dats m 0 c).before 1 t d = blockAt m c 1 t :=
  holds_block_1 m (dats m 0 c) (dats_A m c 1) (after_1 m c) t d
theorem before_2 (c : Dev nD) (t : Fin cfg0.N) (d) : (dats m 0 c).before 2 t d = blockAt m c 2 t :=
  holds_block_2 m (dats m 0 c) (dats_A m c 2) (after_2 m c) t d
theorem before_3 (c : Dev nD) (t : Fin cfg0.N) (d) : (dats m 0 c).before 3 t d = blockAt m c 3 t :=
  holds_block_3 m (dats m 0 c) (dats_A m c 3) (after_3 m c) t d
theorem before_4 (c : Dev nD) (t : Fin cfg0.N) (d) : (dats m 0 c).before 4 t d = blockAt m c 4 t :=
  holds_block_4 m (dats m 0 c) (dats_A m c 4) (after_4 m c) t d
theorem before_5 (c : Dev nD) (t : Fin cfg0.N) (d) : (dats m 0 c).before 5 t d = blockAt m c 5 t :=
  holds_block_5 m (dats m 0 c) (dats_A m c 5) (after_5 m c) t d

/-! ## The body at a grid point -/

/-- What the pipeline hands the body at grid point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any grid point the inputs' buffers hold their blocks, so the body runs as `body_runs` says. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every fair execution of the program ends without a fault; at the end each array of the launch holds what the
    write-backs of the proof data leave in it, and every other buffer what the reshape after the launch leaves. -/
theorem run_main : θ_run defs (onTc (τ := τ) (main (F := F))) (s₀ m ρ) (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_sub) (hfresh := tail_fresh) (hkeep := tail_keeps)
    (hmain := main_around m Variants.none) (hA := dats_A m) (hΦ := fun _ _ => rfl)

/-- The frame: every fair execution ends without a fault and leaves the nine argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_run m ρ (dats m) (run_main m ρ)

end Cert.Kernel.Frame

end
-- ==== Proof.KernelIdealFrame.lean ====
/-
  The run of the program around its one launch, read as a frame: every fair execution ends, nothing faults,
  the nine argument arrays end as they began, and the array the launch writes ends at the blocks the body
  stored, one per grid point.

  The program is a stretch of host operations (three reshapes, two concatenations of weight matrices along
  their columns, three changes of format), the launch over 32 grid points, and one reshape of the result.
  At each grid point the body loads one block of 2048 rows of the state, of the messages and of the mask
  column, and the three weight arrays whole; it stores ONE value, a function of those six loads, over the
  whole output block.  So after the body the output's staging buffer holds that value, each input's buffer
  what it held, and the launch theorem of the pipeline library applies with these proof data.
-/
import proofs.«106987_j28028956573797_2_alg».proof.Proof.Gen.KernelIdeal.Launch
import proofs.«106987_j28028956573797_2_alg».proof.Proof.Gen.KernelIdeal.Skeleton
import proofs.«106987_j28028956573797_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- What core `c`'s buffers hold when the launch is entered: the launch memory after the eight host operations
    before it. -/
abbrev entryVal (c : Dev nD) : Valuation τ sig (Elt F) := StableHlo.after (List.flatten [hostOps0]) (fun b => m (c, b))
/-- The same, read at one buffer of the core. -/
abbrev entry (c : Dev nD) (b : Ref sig .tc) : Buf (Elt F) ((c : Thread nD τ).loc b) := entryVal m c (Proc.devRef .tc b)

/-- None of the host operations allocates a buffer. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- The program is: the operations before the launch, the launch, the operations after it. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape after the launch touches only the launch's result array and its own result. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop
/-- It writes its own result only, which is no array of the launch. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- An argument array is written by no host operation before the launch (each writes its own result buffer):
    the launch finds it as the program was started with. -/
theorem entry_arg (c : Dev nD) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    entry m c b = m ((c : Thread nD τ).loc b) := by
  rcases hb with rfl | rfl | rfl | rfl | rfl | rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nary_writes, StableHlo.unary_writes, StableHlo.binary_writes, StableHlo.reshape_writes, Finset.mem_singleton]
      repeat' apply And.intro
      all_goals exact StableHlo.devRef_ne_of_ne (by decide)))

/-! ## The blocks -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Nor does the reshape after the launch write an argument array, and no argument array is an array of the launch:
    each ends as the program was started with. -/
theorem final_arg (dats : (p : Fin _) → (c : Dev nD) → Dat τ (Elt F) Unit ℕ (UR sig nD τ) ℕ (cfgs p) c) (c : Dev nD) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    Pipeline.afterTail₀ cfgs dats 0 (entryVal m) [hostOps1] c b = m ((c : Thread nD τ).loc b) := by
  unfold Pipeline.afterTail₀
  have hw : ∀ w, Pipeline.arrRef spec0 w ≠ b := by
    rcases hb with rfl | rfl | rfl | rfl | rfl | rfl | rfl | rfl | rfl <;> decide
  have hn : ∀ op ∈ (List.flatten [hostOps1] : List (HloOp τ sig (Elt F))), Proc.devRef .tc b ∉ op.writes := by
    rcases hb with rfl | rfl | rfl | rfl | rfl | rfl | rfl | rfl | rfl
    all_goals
      exact List.forall_iff_forall_mem.mp (by
        simp only [hostOps1, List.flatten_cons, List.flatten_nil, List.append_nil, List.cons_append,
          List.nil_append, List.Forall, StableHlo.reshape_writes, Finset.mem_singleton]
        exact StableHlo.devRef_ne_of_ne (by decide))
  rw [StableHlo.after_of_forall_not_mem (b := Proc.devRef .tc b) _ _ hn,
    Pipeline.withArrays_of_ne _ c (entryVal m c) _ b hw]
  exact entry_arg m c b hb

/-- An input window's current staging buffer holds the window's block at every grid point, whether the pipeline fetched
    it there or not (an unfetched window's block index has not moved since it was fetched), provided the body leaves
    the buffer as it found it. One statement per input window. -/
theorem holds_block_0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem holds_block_1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem holds_block_2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem holds_block_3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem holds_block_4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem holds_block_5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The frame, from a run of the launch -/

/-- From a run that ends with every buffer outside the launch at what the host operations after it leave: each argument
    array ends as it began. -/
theorem frame_of_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans (final_arg m dats c main_arg0 (by simp)),
     ((h c).2 main_arg1 (Pipeline.mem_restRefs_of main_arg1 (by decide) (by decide))).trans (final_arg m dats c main_arg1 (by simp)),
     ((h c).2 main_arg2 (Pipeline.mem_restRefs_of main_arg2 (by decide) (by decide))).trans (final_arg m dats c main_arg2 (by simp)),
     ((h c).2 main_arg3 (Pipeline.mem_restRefs_of main_arg3 (by decide) (by decide))).trans (final_arg m dats c main_arg3 (by simp)),
     ((h c).2 main_arg4 (Pipeline.mem_restRefs_of main_arg4 (by decide) (by decide))).trans (final_arg m dats c main_arg4 (by simp)),
     ((h c).2 main_arg5 (Pipeline.mem_restRefs_of main_arg5 (by decide) (by decide))).trans (final_arg m dats c main_arg5 (by simp)),
     ((h c).2 main_arg6 (Pipeline.mem_restRefs_of main_arg6 (by decide) (by decide))).trans (final_arg m dats c main_arg6 (by simp)),
     ((h c).2 main_arg7 (Pipeline.mem_restRefs_of main_arg7 (by decide) (by decide))).trans (final_arg m dats c main_arg7 (by simp)),
     ((h c).2 main_arg8 (Pipeline.mem_restRefs_of main_arg8 (by decide) (by decide))).trans (final_arg m dats c main_arg8 (by simp))⟩) h

/-! ## What the body stores -/

/-- The whole of each staging buffer, as the rectangle the body's loads and its one store go through. -/
abbrev boxH : Rect S2048x256 := Rect.unit (s := S2048x256) ![0, 0] S2048x256.size inb_S2048x256_S2048x256_0_0
abbrev boxM : Rect S2048x512 := Rect.unit (s := S2048x512) ![0, 0] S2048x512.size inb_S2048x512_S2048x512_0_0
abbrev boxK : Rect S2048x1 := Rect.unit (s := S2048x1) ![0, 0] S2048x1.size inb_S2048x1_S2048x1_0_0
abbrev boxWm : Rect S512x768 := Rect.unit (s := S512x768) ![0, 0] S512x768.size inb_S512x768_S512x768_0_0
abbrev boxUh : Rect S256x512 := Rect.unit (s := S256x512) ![0, 0] S256x512.size inb_S256x512_S256x512_0_0
abbrev boxU : Rect S256x256 := Rect.unit (s := S256x256) ![0, 0] S256x256.size inb_S256x256_S256x256_0_0

/-- The output window's staging buffer after the body, from the six input blocks: the one stored value, laid over the
    whole buffer. -/
def stored (h : Vec F S2048x256 .f32) (msg : Vec F S2048x512 .f32) (k : Vec F S2048x1 .f32)
    (wm : Vec F S512x768 .bf16) (uh : Vec F S256x512 .bf16) (u : Vec F S256x256 .bf16) : Vec F S2048x256 .f32 :=
  View.canon [⟨boxH, k0_pay1 (View.ld h boxH) (View.ld k boxK) (View.ld msg boxM) (View.ld wm boxWm) (View.ld uh boxUh) (View.ld u boxU)⟩]

/-- The one store covers the buffer. -/
theorem stored_covers (p0 : Vec F S2048x256 .f32) (y : S2048x256.Idx) :
    ∃ pc ∈ ([⟨boxH, p0⟩] : List (View.Piece (Elt F) S2048x256 .f32)), y ∈ pc.1.set :=
  View.cover_of_tiled [⟨boxH, p0⟩] S2048x256.size (by rfl) y

/-! ## The body -/

set_option maxHeartbeats 1000000 in
/-- The body, on whole staging buffers — the six inputs' at contents h, msg, k, wm, uh, u, the output's at anything —
    runs to its end, leaves each input's buffer as it was and the output's at the stored value. -/
theorem body_runs (c : Dev nD) (E : Set ℕ) (i : grid0.Coords)
    (arg1 : Memref sig .tc .vmem S2048x256 .f32) (harg1 : arg1.IsWhole) (arg2 : Memref sig .tc .vmem S2048x512 .f32) (harg2 : arg2.IsWhole)
    (arg3 : Memref sig .tc .vmem S2048x1 .f32) (harg3 : arg3.IsWhole) (arg4 : Memref sig .tc .vmem S512x768 .bf16) (harg4 : arg4.IsWhole)
    (arg5 : Memref sig .tc .vmem S256x512 .bf16) (harg5 : arg5.IsWhole) (arg6 : Memref sig .tc .vmem S256x256 .bf16) (harg6 : arg6.IsWhole)
    (arg7 : Memref sig .tc .vmem S2048x256 .f32) (harg7 : arg7.IsWhole)
    (h : Vec F S2048x256 .f32) (msg : Vec F S2048x512 .f32) (k : Vec F S2048x1 .f32)
    (wm : Vec F S512x768 .bf16) (uh : Vec F S256x512 .bf16) (u : Vec F S256x256 .bf16) (K : PUnit → sProp 𝕄) :
    iprop(owns (c : Thread nD τ) arg1 fullShare h ∗ owns (c : Thread nD τ) arg2 fullShare msg ∗ owns (c : Thread nD τ) arg3 fullShare k
        ∗ owns (c : Thread nD τ) arg4 fullShare wm ∗ owns (c : Thread nD τ) arg5 fullShare uh ∗ owns (c : Thread nD τ) arg6 fullShare u
        ∗ (∃ d, owns (c : Thread nD τ) arg7 fullShare d)
        ∗ (iprop(owns (c : Thread nD τ) arg1 fullShare h ∗ owns (c : Thread nD τ) arg2 fullShare msg ∗ owns (c : Thread nD τ) arg3 fullShare k
            ∗ owns (c : Thread nD τ) arg4 fullShare wm ∗ owns (c : Thread nD τ) arg5 fullShare uh ∗ owns (c : Thread nD τ) arg6 fullShare u
            ∗ owns (c : Thread nD τ) arg7 fullShare (stored h msg k wm uh u)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_covers _)

/-! ## The proof data of the launch -/

/-- On core `c`: the arrays as the launch finds them; after the body at grid point `t` each input's buffer still at its
    block, the output's at the stored value of the six input blocks; nothing else is touched, nothing is owed. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => stored (blockAt m c 0 t) (blockAt m c 1 t) (blockAt m c 2 t) (blockAt m c 3 t) (blockAt m c 4 t) (blockAt m c 5 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t
    = stored (blockAt m c 0 t) (blockAt m c 1 t) (blockAt m c 2 t) (blockAt m c 3 t) (blockAt m c 4 t) (blockAt m c 5 t) := by dsimp only [dats]

theorem before_0 (c : Dev nD) (t : Fin cfg0.N) (d) : (dats m 0 c).before 0 t d = blockAt m c 0 t :=
  holds_block_0 m (dats m 0 c) (dats_A m c 0) (after_0 m c) t d
theorem before_1 (c : Dev nD) (t : Fin cfg0.N) (d) : (dats m 0 c).before 1 t d = blockAt m c 1 t :=
  holds_block_1 m (dats m 0 c) (dats_A m c 1) (after_1 m c) t d
theorem before_2 (c : Dev nD) (t : Fin cfg0.N) (d) : (dats m 0 c).before 2 t d = blockAt m c 2 t :=
  holds_block_2 m (dats m 0 c) (dats_A m c 2) (after_2 m c) t d
theorem before_3 (c : Dev nD) (t : Fin cfg0.N) (d) : (dats m 0 c).before 3 t d = blockAt m c 3 t :=
  holds_block_3 m (dats m 0 c) (dats_A m c 3) (after_3 m c) t d
theorem before_4 (c : Dev nD) (t : Fin cfg0.N) (d) : (dats m 0 c).before 4 t d = blockAt m c 4 t :=
  holds_block_4 m (dats m 0 c) (dats_A m c 4) (after_4 m c) t d
theorem before_5 (c : Dev nD) (t : Fin cfg0.N) (d) : (dats m 0 c).before 5 t d = blockAt m c 5 t :=
  holds_block_5 m (dats m 0 c) (dats_A m c 5) (after_5 m c) t d

/-! ## The body at a grid point -/

/-- What the pipeline hands the body at grid point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any grid point the inputs' buffers hold their blocks, so the body runs as `body_runs` says. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every fair execution of the program ends without a fault; at the end each array of the launch holds what the
    write-backs of the proof data leave in it, and every other buffer what the reshape after the launch leaves. -/
theorem run_main : θ_run defs (onTc (τ := τ) (main (F := F))) (s₀ m ρ) (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_sub) (hfresh := tail_fresh) (hkeep := tail_keeps)
    (hmain := main_around m Variants.none) (hA := dats_A m) (hΦ := fun _ _ => rfl)

/-- The frame: every fair execution ends without a fault and leaves the nine argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_run m ρ (dats m) (run_main m ρ)

end Cert.KernelIdeal.Frame

end
-- ==== Proof.Spec.lean ====
/-
  The gated recurrent update, as a function of its arguments, entry by entry, on the extended reals.

  One row of the update reads a state row h (256 entries), a message row m (512 entries) and a mask entry κ,
  against six weight matrices.  With σ the logistic function,
    z  = σ (m·Wz + h·Uz)                       the update gate,
    r  = σ (m·Wr + h·Ur)                       the reset gate,
    h' = tanh (m·W + (r ⊙ h)·U)                the candidate state,
  and the new state is ((1 − z) ⊙ h + z ⊙ h') · κ.
  Every product of a row by a matrix is the plain sum over the contracted coordinate; nothing is
  rearranged, so no finiteness of the entries is used anywhere.
-/
import Idealize.ShloMosaic.PureOps.Ideal
import Idealize.ShloMosaic.Lib.ValueIdx
import Idealize.ShloMosaic.Lib.Pipeline.Value

noncomputable section

namespace Cert.Gru

open Idealize.ShloMosaic Idealize.ShloMosaic.ValueIdx
open scoped BigOperators

/-- The number one as both programs write it: the single-precision pattern of 1.0. -/
abbrev one : EReal := Ideal.ofBits .f32 0x3F800000#32

/-- A gate at column q: the logistic function of (m·A + h·B) at q. -/
def gate (m : Fin 512 → EReal) (h : Fin 256 → EReal) (A : Fin 512 → Fin 256 → EReal) (B : Fin 256 → Fin 256 → EReal)
    (q : Fin 256) : EReal :=
  Ideal.logistic ((∑ k : Fin 512, m k * A k q) + (∑ k : Fin 256, h k * B k q))

/-- The new state of one row at column q. -/
def cell (h : Fin 256 → EReal) (m : Fin 512 → EReal) (κ : EReal)
    (Wz : Fin 512 → Fin 256 → EReal) (Uz : Fin 256 → Fin 256 → EReal)
    (Wr : Fin 512 → Fin 256 → EReal) (Ur : Fin 256 → Fin 256 → EReal)
    (W : Fin 512 → Fin 256 → EReal) (U : Fin 256 → Fin 256 → EReal) (q : Fin 256) : EReal :=
  ((one - gate m h Wz Uz q) * h q
    + gate m h Wz Uz q
      * Ideal.tanh ((∑ k : Fin 512, m k * W k q) + (∑ k : Fin 256, (gate m h Wr Ur k * h k) * U k q))) * κ

/-- The update of R rows at once: row p of the result is the cell of row p of the state, row p of the messages and
    entry p of the mask column. -/
def rows (R : Nat) (H : (⟨2, ![R, 256]⟩ : Shape).Idx → EReal) (M : (⟨2, ![R, 512]⟩ : Shape).Idx → EReal)
    (K : (⟨2, ![R, 1]⟩ : Shape).Idx → EReal)
    (Wz : (⟨2, ![512, 256]⟩ : Shape).Idx → EReal) (Uz : (⟨2, ![256, 256]⟩ : Shape).Idx → EReal)
    (Wr : (⟨2, ![512, 256]⟩ : Shape).Idx → EReal) (Ur : (⟨2, ![256, 256]⟩ : Shape).Idx → EReal)
    (W : (⟨2, ![512, 256]⟩ : Shape).Idx → EReal) (U : (⟨2, ![256, 256]⟩ : Shape).Idx → EReal) :
    (⟨2, ![R, 256]⟩ : Shape).Idx → EReal :=
  fun j => cell (fun k => H (ix2 (j 0) k)) (fun k => M (ix2 (j 0) k)) (K (ix2 (j 0) (0 : Fin 1)))
    (fun k q => Wz (ix2 k q)) (fun k q => Uz (ix2 k q)) (fun k q => Wr (ix2 k q)) (fun k q => Ur (ix2 k q))
    (fun k q => W (ix2 k q)) (fun k q => U (ix2 k q)) (j 1)

theorem rows_apply (R : Nat) (H : (⟨2, ![R, 256]⟩ : Shape).Idx → EReal) (M : (⟨2, ![R, 512]⟩ : Shape).Idx → EReal)
    (K : (⟨2, ![R, 1]⟩ : Shape).Idx → EReal)
    (Wz : (⟨2, ![512, 256]⟩ : Shape).Idx → EReal) (Uz : (⟨2, ![256, 256]⟩ : Shape).Idx → EReal)
    (Wr : (⟨2, ![512, 256]⟩ : Shape).Idx → EReal) (Ur : (⟨2, ![256, 256]⟩ : Shape).Idx → EReal)
    (W : (⟨2, ![512, 256]⟩ : Shape).Idx → EReal) (U : (⟨2, ![256, 256]⟩ : Shape).Idx → EReal)
    (p : Fin R) (q : Fin 256) :
    rows R H M K Wz Uz Wr Ur W U (ix2 p q)
      = cell (fun k => H (ix2 p k)) (fun k => M (ix2 p k)) (K (ix2 p (0 : Fin 1)))
          (fun k q => Wz (ix2 k q)) (fun k q => Uz (ix2 k q)) (fun k q => Wr (ix2 k q)) (fun k q => Ur (ix2 k q))
          (fun k q => W (ix2 k q)) (fun k q => U (ix2 k q)) q := rfl

/-- The batched shapes seen as 65536 rows, and back. -/
theorem casts_state : (⟨3, ![64, 1024, 256]⟩ : Shape).ShapeCasts ⟨2, ![65536, 256]⟩ := by decide
theorem casts_message : (⟨3, ![64, 1024, 512]⟩ : Shape).ShapeCasts ⟨2, ![65536, 512]⟩ := by decide
theorem casts_mask : (⟨2, ![64, 1024]⟩ : Shape).ShapeCasts ⟨2, ![65536, 1]⟩ := by decide
theorem casts_back : (⟨2, ![65536, 256]⟩ : Shape).ShapeCasts ⟨3, ![64, 1024, 256]⟩ := by decide

/-- The whole result: the 64 × 1024 node states are laid out as 65536 rows (row-major), the mask as a column of
    65536 entries, the rows updated, and the result laid back out as 64 × 1024 × 256. -/
def result (state : (⟨3, ![64, 1024, 256]⟩ : Shape).Idx → EReal) (message : (⟨3, ![64, 1024, 512]⟩ : Shape).Idx → EReal)
    (mask : (⟨2, ![64, 1024]⟩ : Shape).Idx → EReal)
    (Wz : (⟨2, ![512, 256]⟩ : Shape).Idx → EReal) (Uz : (⟨2, ![256, 256]⟩ : Shape).Idx → EReal)
    (Wr : (⟨2, ![512, 256]⟩ : Shape).Idx → EReal) (Ur : (⟨2, ![256, 256]⟩ : Shape).Idx → EReal)
    (W : (⟨2, ![512, 256]⟩ : Shape).Idx → EReal) (U : (⟨2, ![256, 256]⟩ : Shape).Idx → EReal) :
    (⟨3, ![64, 1024, 256]⟩ : Shape).Idx → EReal :=
  shapeCast ⟨3, ![64, 1024, 256]⟩
    (rows 65536 (shapeCast ⟨2, ![65536, 256]⟩ state casts_state) (shapeCast ⟨2, ![65536, 512]⟩ message casts_message)
      (shapeCast ⟨2, ![65536, 1]⟩ mask casts_mask) Wz Uz Wr Ur W U)
    casts_back

end Cert.Gru

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.KernelPayload.lean ====
/-
  The value the body stores, read at one entry.

  The body multiplies the 2048 message rows by the 512 × 768 matrix that holds Wz, Wr and W side by side, and the
  2048 state rows by the 256 × 512 matrix that holds Uz and Ur side by side, and then cuts the products' columns
  into bands of 256.  Column q of band number b of a product is column 256 b + q of the product, which is the
  row times column 256 b + q of the wide matrix: the product with the band of the matrix.  So at entry (p, q)
  the stored value is the cell of row p against the bands of the wide matrices.
-/
import proofs.«106987_j28028956573797_2_alg».proof.Proof.Gen.KernelIdeal.Skeleton
import proofs.«106987_j28028956573797_2_alg».proof.Proof.Spec
import proofs.«106987_j28028956573797_2_alg».proof.Proof.LibPlainDot
import proofs.«106987_j28028956573797_2_alg».proof.Proof.LibColumn
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen
open Idealize.ShloMosaic Idealize.ShloMosaic.ValueIdx
open scoped BigOperators

/-- A band of 256 columns of a product of 2048 rows by a K × N matrix into the zero splat, at entry (p, q):
    the sum over the contracted coordinate of the row's entries times the entries of column o + q. -/
theorem band_of_product {K N : Nat} (o : Nat) (D : DotDims ⟨2, ![2048, K]⟩ ⟨2, ![K, N]⟩ ⟨2, ![2048, N]⟩)
    (hD : D = DotDims.plain 2048 K N) (A : FVec Ideal ⟨2, ![2048, K]⟩ .bf16) (B : FVec Ideal ⟨2, ![K, N]⟩ .bf16)
    (hs : (⟨2, ![2048, N]⟩ : Shape).Slices ![0, o] ⟨2, ![2048, 256]⟩) (p : Fin 2048) (q : Fin 256) (ho : o + q.val < N) :
    extractStridedSlice ⟨2, ![2048, 256]⟩ ![0, o]
        (matmul D none A B (constant (F := Ideal) ⟨2, ![2048, N]⟩ .f32 0x00000000#32)) hs (ix2 p q)
      = ∑ c : Fin K, A (ix2 p c) * B (ix2 c (⟨o + q.val, ho⟩ : Fin N)) :=
  (slice2_axis1_apply o _ hs p q ⟨o + q.val, ho⟩ rfl).trans
    (Cert.LibPlainDot.matmul_plain_zero_apply D hD none A B p _)

/-- The vector forms of the two transcendental functions, read at an entry. -/
theorem logistic_at {s : Shape} (x : FVec Ideal s .f32) (i : s.Idx) : logistic x i = Ideal.logistic (x i) := rfl
theorem tanh_at {s : Shape} (x : FVec Ideal s .f32) (i : s.Idx) : tanh x i = Ideal.tanh (x i) := rfl

/-- Band number b (columns 256 b … 256 b + 255) of a matrix of 512 or 256 rows, as a function of row and column. -/
abbrev bandWm (wm : FVec Ideal S512x768 .bf16) (o : Nat) (ho : o + 256 ≤ 768) : Fin 512 → Fin 256 → EReal :=
  fun a b => wm (ix2 a (⟨o + b.val, by have := b.isLt; omega⟩ : Fin 768))
abbrev bandUh (uh : FVec Ideal S256x512 .bf16) (o : Nat) (ho : o + 256 ≤ 512) : Fin 256 → Fin 256 → EReal :=
  fun a b => uh (ix2 a (⟨o + b.val, by have := b.isLt; omega⟩ : Fin 512))

/-- THE STORED VALUE at entry (p, q): the cell of row p of the state block, row p of the message block and entry p of
    the mask block, against the bands of the two wide matrices and the third matrix. -/
theorem stored_value_apply (h : FVec Ideal S2048x256 .f32) (k : FVec Ideal S2048x1 .f32) (msg : FVec Ideal S2048x512 .f32)
    (wm : FVec Ideal S512x768 .bf16) (uh : FVec Ideal S256x512 .bf16) (u : FVec Ideal S256x256 .bf16) (p : Fin 2048) (q : Fin 256) :
    k0_pay1 (F := Ideal) h k msg wm uh u (ix2 p q)
      = Cert.Gru.cell (fun j => h (ix2 p j)) (fun j => msg (ix2 p j)) (k (ix2 p (0 : Fin 1)))
          (bandWm wm 0 (by omega)) (bandUh uh 0 (by omega)) (bandWm wm 256 (by omega)) (bandUh uh 256 (by omega))
          (bandWm wm 512 (by omega)) (fun a b => u (ix2 a b)) q := by
  have eM : ∀ (o : Nat) (hs : S2048x768.Slices ![0, o] S2048x256) (q' : Fin 256) (ho : o + q'.val < 768),
      extractStridedSlice S2048x256 ![0, o] (matmul dot_S2048x512_S512x768_S2048x768_1_0_0_1_n_n none (truncf .bf16 msg bitsLt_bf16_f32) wm (constant S2048x768 .f32 0x00000000#32)) hs (ix2 p q')
        = ∑ c : Fin 512, msg (ix2 p c) * wm (ix2 c (⟨o + q'.val, ho⟩ : Fin 768)) :=
    fun o hs q' ho => band_of_product o _ rfl _ _ hs p q' ho
  have eH : ∀ (o : Nat) (hs : S2048x512.Slices ![0, o] S2048x256) (q' : Fin 256) (ho : o + q'.val < 512),
      extractStridedSlice S2048x256 ![0, o] (matmul dot_S2048x256_S256x512_S2048x512_1_0_0_1_n_n none (truncf .bf16 h bitsLt_bf16_f32) uh (constant S2048x512 .f32 0x00000000#32)) hs (ix2 p q')
        = ∑ c : Fin 256, h (ix2 p c) * uh (ix2 c (⟨o + q'.val, ho⟩ : Fin 512)) :=
    fun o hs q' ho => band_of_product o _ rfl _ _ hs p q' ho
  have e3 : ∀ X : FVec Ideal S2048x256 .bf16,
      matmul dot_S2048x256_S256x256_S2048x256_1_0_0_1_n_n none X u (constant S2048x256 .f32 0x00000000#32) (ix2 p q)
        = ∑ c : Fin 256, X (ix2 p c) * u (ix2 c q) :=
    fun X => Cert.LibPlainDot.matmul_plain_zero_apply _ rfl none X u p q
  have eK : broadcastTo S2048x256 k broadcasts_S2048x1_S2048x256 (ix2 p q) = k (ix2 p (0 : Fin 1)) :=
    ColumnForms.broadcastTo_a1_ab_apply k _ p q
  have eMz := eM 0 slices_S2048x768_o0_0_S2048x256 q (by have := q.isLt; omega)
  have eHz := eH 0 slices_S2048x512_o0_0_S2048x256 q (by have := q.isLt; omega)
  have eMc := eM 512 slices_S2048x768_o0_512_S2048x256 q (by have := q.isLt; omega)
  have eMr : ∀ c : Fin 256, _ = _ := fun c => eM 256 slices_S2048x768_o0_256_S2048x256 c (by have := c.isLt; omega)
  have eHr : ∀ c : Fin 256, _ = _ := fun c => eH 256 slices_S2048x512_o0_256_S2048x256 c (by have := c.isLt; omega)
  unfold k0_pay1
  simp only [shapeCast_self]
  simp only [mulf_apply, addf_apply, subf_apply, broadcast_apply, logistic_at, tanh_at, e3, eK, truncf_apply]
  rw [eMz, eHz, eMc]
  simp only [eMr, eHr]
  rfl

end Cert.KernelIdeal.Payload

end
-- ==== Proof.KernelValue.lean ====
/-
  From the blocks to the array: what the launch's result array holds when the launch is over, and what the
  program's result holds at the end.

  The 65536 rows are cut into 32 blocks of 2048; grid point t reads block t of the state, of the messages and of
  the mask column, and the three weight arrays whole, and writes block t of the result.  Row p of block t is row
  2048 t + p of the arrays, so what point t writes back is block t of ONE function of the arrays as the launch
  finds them: the row-by-row update.  The 32 blocks cover the result array, so the array ends at that function.
-/
import proofs.«106987_j28028956573797_2_alg».proof.Proof.KernelIdealFrame
import proofs.«106987_j28028956573797_2_alg».proof.Proof.KernelPayload
import proofs.«106987_j28028956573797_2_alg».proof.Proof.Spec
import Idealize.ShloMosaic.Lib.Pipeline.Value
import Idealize.ShloMosaic.Lib.ValueIdx

set_option maxRecDepth 16384

noncomputable section

namespace Cert.KernelIdeal.Launched

open Cert.KernelIdeal Cert.KernelIdeal.Gen Cert.KernelIdeal.Frame Cert.KernelIdeal.Payload
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at grid point t: the three row-blocked inputs and the output at block row t,
    the three weight arrays at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 32 := lt_of_lt_of_eq t.isLt N_0

/-- Row p of block t is row 2048 t + p of the array. -/
def row (t : Fin cfg0.N) (p : Fin 2048) : Fin 65536 := ⟨t.val * 2048 + p.val, by have := point_lt t; have := p.isLt; omega⟩

/-! ## Each input block, read at an entry -/

theorem block_state (c : Dev nD) (t : Fin cfg0.N) (p : Fin 2048) (j : Fin 256) :
    (blockAt m c 0 t : Vec Ideal S2048x256 .f32) (ix2 p j) = (entry m c main_v0 : S65536x256.Idx → EReal) (ix2 (row t p) j) := by
  obtain ⟨e0, e1, -⟩ := block_indices t
  unfold blockAt
  rw [View.read_apply]
  show (entry m c main_v0 : S65536x256.Idx → EReal) (((cfg0.win 0).blk t).view.emb (ix2 p j)) = _
  refine congrArg (entry m c main_v0 : S65536x256.Idx → EReal) ?_
  funext a; apply Fin.ext
  match a with
  | ⟨0, _⟩ => show win0_0.index t (0 : Fin 2) * 2048 + 1 * p.val = t.val * 2048 + p.val; rw [e0]; omega
  | ⟨1, _⟩ => show win0_0.index t (1 : Fin 2) * 256 + 1 * j.val = j.val; rw [e1]; omega

theorem block_message (c : Dev nD) (t : Fin cfg0.N) (p : Fin 2048) (j : Fin 512) :
    (blockAt m c 1 t : Vec Ideal S2048x512 .f32) (ix2 p j) = (entry m c main_v1 : S65536x512.Idx → EReal) (ix2 (row t p) j) := by
  have e := block_indices t
  unfold blockAt
  rw [View.read_apply]
  show (entry m c main_v1 : S65536x512.Idx → EReal) (((cfg0.win 1).blk t).view.emb (ix2 p j)) = _
  refine congrArg (entry m c main_v1 : S65536x512.Idx → EReal) ?_
  funext a; apply Fin.ext
  match a with
  | ⟨0, _⟩ => show win0_1.index t (0 : Fin 2) * 2048 + 1 * p.val = t.val * 2048 + p.val; omega
  | ⟨1, _⟩ => show win0_1.index t (1 : Fin 2) * 512 + 1 * j.val = j.val; omega

theorem block_mask (c : Dev nD) (t : Fin cfg0.N) (p : Fin 2048) (j : Fin 1) :
    (blockAt m c 2 t : Vec Ideal S2048x1 .f32) (ix2 p j) = (entry m c main_v2 : S65536x1.Idx → EReal) (ix2 (row t p) j) := by
  have e := block_indices t
  unfold blockAt
  rw [View.read_apply]
  show (entry m c main_v2 : S65536x1.Idx → EReal) (((cfg0.win 2).blk t).view.emb (ix2 p j)) = _
  refine congrArg (entry m c main_v2 : S65536x1.Idx → EReal) ?_
  funext a; apply Fin.ext
  match a with
  | ⟨0, _⟩ => show win0_2.index t (0 : Fin 2) * 2048 + 1 * p.val = t.val * 2048 + p.val; omega
  | ⟨1, _⟩ => show win0_2.index t (1 : Fin 2) * 1 + 1 * j.val = j.val; omega

theorem block_wm (c : Dev nD) (t : Fin cfg0.N) (a : Fin 512) (b : Fin 768) :
    (blockAt m c 3 t : Vec Ideal S512x768 .bf16) (ix2 a b) = (entry m c main_v4 : S512x768.Idx → EReal) (ix2 a b) := by
  have e := block_indices t
  unfold blockAt
  rw [View.read_apply]
  show (entry m c main_v4 : S512x768.Idx → EReal) (((cfg0.win 3).blk t).view.emb (ix2 a b)) = _
  refine congrArg (entry m c main_v4 : S512x768.Idx → EReal) ?_
  funext ax; apply Fin.ext
  match ax with
  | ⟨0, _⟩ => show win0_3.index t (0 : Fin 2) * 512 + 1 * a.val = a.val; omega
  | ⟨1, _⟩ => show win0_3.index t (1 : Fin 2) * 768 + 1 * b.val = b.val; omega

theorem block_uh (c : Dev nD) (t : Fin cfg0.N) (a : Fin 256) (b : Fin 512) :
    (blockAt m c 4 t : Vec Ideal S256x512 .bf16) (ix2 a b) = (entry m c main_v6 : S256x512.Idx → EReal) (ix2 a b) := by
  have e := block_indices t
  unfold blockAt
  rw [View.read_apply]
  show (entry m c main_v6 : S256x512.Idx → EReal) (((cfg0.win 4).blk t).view.emb (ix2 a b)) = _
  refine congrArg (entry m c main_v6 : S256x512.Idx → EReal) ?_
  funext ax; apply Fin.ext
  match ax with
  | ⟨0, _⟩ => show win0_4.index t (0 : Fin 2) * 256 + 1 * a.val = a.val; omega
  | ⟨1, _⟩ => show win0_4.index t (1 : Fin 2) * 512 + 1 * b.val = b.val; omega

theorem block_u (c : Dev nD) (t : Fin cfg0.N) (a : Fin 256) (b : Fin 256) :
    (blockAt m c 5 t : Vec Ideal S256x256 .bf16) (ix2 a b) = (entry m c main_v7 : S256x256.Idx → EReal) (ix2 a b) := by
  have e := block_indices t
  unfold blockAt
  rw [View.read_apply]
  show (entry m c main_v7 : S256x256.Idx → EReal) (((cfg0.win 5).blk t).view.emb (ix2 a b)) = _
  refine congrArg (entry m c main_v7 : S256x256.Idx → EReal) ?_
  funext ax; apply Fin.ext
  match ax with
  | ⟨0, _⟩ => show win0_5.index t (0 : Fin 2) * 256 + 1 * a.val = a.val; omega
  | ⟨1, _⟩ => show win0_5.index t (1 : Fin 2) * 256 + 1 * b.val = b.val; omega

/-! ## The result array as one function -/

/-- The row-by-row update of the arrays as the launch finds them, the gates' matrices being the bands of the two
    wide matrices. -/
def launched (c : Dev nD) : S65536x256.Idx → EReal :=
  Cert.Gru.rows 65536 (entry m c main_v0) (entry m c main_v1) (entry m c main_v2)
    (fun i => bandWm (entry m c main_v4) 0 (by omega) (i 0) (i 1)) (fun i => bandUh (entry m c main_v6) 0 (by omega) (i 0) (i 1))
    (fun i => bandWm (entry m c main_v4) 256 (by omega) (i 0) (i 1)) (fun i => bandUh (entry m c main_v6) 256 (by omega) (i 0) (i 1))
    (fun i => bandWm (entry m c main_v4) 512 (by omega) (i 0) (i 1)) (entry m c main_v7)

/-- The value the body stores at grid point t, at entry (p, q), is the update at row 2048 t + p, column q. -/
theorem stored_block (c : Dev nD) (t : Fin cfg0.N) (p : Fin 2048) (q : Fin 256) :
    k0_pay1 (F := Ideal) (blockAt m c 0 t) (blockAt m c 2 t) (blockAt m c 1 t) (blockAt m c 3 t) (blockAt m c 4 t) (blockAt m c 5 t) (ix2 p q)
      = launched m c (ix2 (row t p) q) := by
  refine (stored_value_apply (blockAt m c 0 t) (blockAt m c 2 t) (blockAt m c 1 t) (blockAt m c 3 t) (blockAt m c 4 t) (blockAt m c 5 t) p q).trans ?_
  unfold launched
  rw [Cert.Gru.rows_apply]
  have hh : (fun j => (blockAt m c 0 t : Vec Ideal S2048x256 .f32) (ix2 p j)) = fun k => (entry m c main_v0 : S65536x256.Idx → EReal) (ix2 (row t p) k) :=
    funext fun j => block_state m c t p j
  have hm : (fun j => (blockAt m c 1 t : Vec Ideal S2048x512 .f32) (ix2 p j)) = fun k => (entry m c main_v1 : S65536x512.Idx → EReal) (ix2 (row t p) k) :=
    funext fun j => block_message m c t p j
  have hk : (blockAt m c 2 t : Vec Ideal S2048x1 .f32) (ix2 p (0 : Fin 1)) = (entry m c main_v2 : S65536x1.Idx → EReal) (ix2 (row t p) (0 : Fin 1)) :=
    block_mask m c t p 0
  have hwm : ∀ (o : Nat) (ho : o + 256 ≤ 768), bandWm (blockAt m c 3 t) o ho = bandWm (entry m c main_v4) o ho :=
    fun o ho => funext fun a => funext fun b => block_wm m c t a _
  have huh : ∀ (o : Nat) (ho : o + 256 ≤ 512), bandUh (blockAt m c 4 t) o ho = bandUh (entry m c main_v6) o ho :=
    fun o ho => funext fun a => funext fun b => block_uh m c t a _
  have hu : (fun a b => (blockAt m c 5 t : Vec Ideal S256x256 .bf16) (ix2 a b)) = fun a b => (entry m c main_v7 : S256x256.Idx → EReal) (ix2 a b) :=
    funext fun a => funext fun b => block_u m c t a b
  rw [hh, hm, hk, hwm, hwm, hwm, huh, huh, hu]

/-! ## What each grid point writes back, and the cover -/

/-- WHAT POINT t WRITES BACK is block t of the update. -/
theorem flushed_eq (c : Dev nD) (t : Fin cfg0.N) :
    (dats m 0 c).flushed 6 t = ((cfg0.win 6).blk t).view.read (Elt Ideal) (launched m c) := by
  have e := block_indices t
  show (cfg0.win 6).cut (grid0.coords t) ((dats m 0 c).after 6 t) = _
  rw [after_6]
  unfold stored
  rw [View.canon_unit_zero zero_offsets]
  simp only [View.ld_unit_zero (S := S2048x256) zero_offsets, View.ld_unit_zero (S := S2048x512) zero_offsets,
    View.ld_unit_zero (S := S2048x1) zero_offsets, View.ld_unit_zero (S := S512x768) zero_offsets,
    View.ld_unit_zero (S := S256x512) zero_offsets, View.ld_unit_zero (S := S256x256) zero_offsets]
  funext y
  obtain ⟨p, q, rfl⟩ : ∃ (p : Fin 2048) (q : Fin 256), y = ix2 p q := ⟨y 0, y 1, eq_ix2 y⟩
  show k0_pay1 (F := Ideal) (blockAt m c 0 t) (blockAt m c 2 t) (blockAt m c 1 t) (blockAt m c 3 t) (blockAt m c 4 t) (blockAt m c 5 t) (ix2 p q)
      = launched m c (((cfg0.win 6).blk t).view.emb (ix2 p q))
  have hemb : ((cfg0.win 6).blk t).view.emb (ix2 p q) = ix2 (row t p) q := by
    funext a; apply Fin.ext
    match a with
    | ⟨0, _⟩ => show win0_6.index t (0 : Fin 2) * 2048 + 1 * p.val = t.val * 2048 + p.val; omega
    | ⟨1, _⟩ => show win0_6.index t (1 : Fin 2) * 256 + 1 * q.val = q.val; omega
  rw [hemb]
  exact stored_block m c t p q

/-- An entry of the result array is in point t's block iff its row is one of the block's 2048 rows. -/
theorem mem_block (t : Fin cfg0.N) (i : S65536x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v8).slice (win0_6.rect t)).set ↔ _
  rw [View.set_slice_whole, Rect.mem_set_unit]
  exact Iff.rfl

/-- Every entry of the result array is written back by the point whose block holds its row: point (row / 2048). -/
theorem covered (i : S65536x256.Idx) : ∃ t : Fin cfg0.N, (cfg0.win 6).flush t = true ∧ i ∈ ((cfg0.win 6).blk t).view.set := by
  have hi0 : (i 0).val < 65536 := (i 0).isLt
  have hi1 : (i 1).val < 256 := (i 1).isLt
  have hN : cfg0.N = 32 := N_0
  refine ⟨⟨(i 0).val / 2048, by rw [hN]; omega⟩, flush0_6 _, ?_⟩
  have e := block_indices ⟨(i 0).val / 2048, by rw [hN]; omega⟩
  obtain ⟨-, -, -, -, -, -, -, -, -, -, -, -, e0, e1⟩ := e
  rw [mem_block]
  intro a
  match a with
  | ⟨0, _⟩ =>
    show win0_6.index _ (0 : Fin 2) * 2048 ≤ (i 0).val ∧ (i 0).val < win0_6.index _ (0 : Fin 2) * 2048 + 2048
    rw [e0]; show (i 0).val / 2048 * 2048 ≤ (i 0).val ∧ (i 0).val < (i 0).val / 2048 * 2048 + 2048; omega
  | ⟨1, _⟩ =>
    show win0_6.index _ (1 : Fin 2) * 256 ≤ (i 1).val ∧ (i 1).val < win0_6.index _ (1 : Fin 2) * 256 + 256
    rw [e1]; omega

/-- THE RESULT ARRAY OF THE LAUNCH, when the launch is over, is the update of the arrays the launch found. -/
theorem launch_result (c : Dev nD) : (dats m 0 c).arrAt 6 cfg0.N = launched m c :=
  (dats m 0 c).arrAt_eq_of_cover 6 (launched m c) (fun t _ => flushed_eq m c t) covered

/-- The program's result: the reshape after the launch lays the launch's result array out as 64 × 1024 × 256. -/
theorem program_result (c : Dev nD) :
    Pipeline.afterTail₀ cfgs (dats m) 0 (entryVal m) [hostOps1] c main_v9
      = shapeCast S64x1024x256 (launched m c) shapeCasts_S65536x256_S64x1024x256 := by
  unfold Pipeline.afterTail₀
  show StableHlo.after hostOps1 _ (Proc.devRef .tc main_v9) = _
  after_results
  have hw : Pipeline.withArrays (cfgs 0).spec c (entryVal m c) (fun w => (dats m 0 c).arrAt w (cfgs 0).N) (Proc.devRef .tc main_v8)
      = launched m c :=
    (Pipeline.withArrays_arr spec0 launch0.win.arr_inj c (entryVal m c) (fun w => (dats m 0 c).arrAt w (cfgs 0).N) 6).trans (launch_result m c)
  exact congrArg (fun X => shapeCast S64x1024x256 X shapeCasts_S65536x256_S64x1024x256) hw

end Cert.KernelIdeal.Launched

end
-- ==== Proof.KernelEntry.lean ====
/-
  The arrays the launch finds, as functions of the program's arguments.

  Before the launch the program lays the node states, the messages and the mask out as 65536 rows (the mask as a
  column), sets Wz, Wr, W side by side into one 512 × 768 matrix and Uz, Ur into one 256 × 512 matrix, and changes
  the three weight arrays' format, which at the ideal values changes nothing.  So band number b of a wide matrix
  is the b-th matrix that was set into it.
-/
import proofs.«106987_j28028956573797_2_alg».proof.Proof.KernelIdealFrame
import proofs.«106987_j28028956573797_2_alg».proof.Proof.KernelPayload
import Idealize.ShloMosaic.Lib.Pipeline.Value
import Idealize.ShloMosaic.Lib.StableHlo.Run
import Idealize.ShloMosaic.Lib.ValueIdx

noncomputable section

namespace Cert.KernelIdeal.Entry

open Cert.KernelIdeal Cert.KernelIdeal.Gen Cert.KernelIdeal.Frame Cert.KernelIdeal.Payload
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The states, the messages and the mask as the launch finds them: the arguments laid out as 65536 rows. -/
theorem entry_state (c : Dev nD) :
    (entry m c main_v0 : S65536x256.Idx → EReal) = shapeCast S65536x256 (m ((c : Thread nD τ).loc main_arg0)) shapeCasts_S64x1024x256_S65536x256 := by
  show StableHlo.after hostOps0 (fun b => m (c, b)) (Proc.devRef .tc main_v0) = _
  after_results; rfl
theorem entry_message (c : Dev nD) :
    (entry m c main_v1 : S65536x512.Idx → EReal) = shapeCast S65536x512 (m ((c : Thread nD τ).loc main_arg1)) shapeCasts_S64x1024x512_S65536x512 := by
  show StableHlo.after hostOps0 (fun b => m (c, b)) (Proc.devRef .tc main_v1) = _
  after_results; rfl
theorem entry_mask (c : Dev nD) :
    (entry m c main_v2 : S65536x1.Idx → EReal) = shapeCast S65536x1 (m ((c : Thread nD τ).loc main_arg2)) shapeCasts_S64x1024_S65536x1 := by
  show StableHlo.after hostOps0 (fun b => m (c, b)) (Proc.devRef .tc main_v2) = _
  after_results; rfl

/-- The wide matrices: the weight arguments side by side (the change of format is the identity on the values). -/
theorem entry_wide_m (c : Dev nD) :
    (entry m c main_v4 : S512x768.Idx → EReal)
      = concatenate S512x768 1 [⟨S512x256, m ((c : Thread nD τ).loc main_arg3)⟩, ⟨S512x256, m ((c : Thread nD τ).loc main_arg5)⟩, ⟨S512x256, m ((c : Thread nD τ).loc main_arg7)⟩] concatenates_S512x256_S512x256_S512x256_S512x768_d1 := by
  show StableHlo.after hostOps0 (fun b => m (c, b)) (Proc.devRef .tc main_v4) = _
  after_results; rfl
theorem entry_wide_h (c : Dev nD) :
    (entry m c main_v6 : S256x512.Idx → EReal)
      = concatenate S256x512 1 [⟨S256x256, m ((c : Thread nD τ).loc main_arg4)⟩, ⟨S256x256, m ((c : Thread nD τ).loc main_arg6)⟩] concatenates_S256x256_S256x256_S256x512_d1 := by
  show StableHlo.after hostOps0 (fun b => m (c, b)) (Proc.devRef .tc main_v6) = _
  after_results; rfl
theorem entry_u (c : Dev nD) :
    (entry m c main_v7 : S256x256.Idx → EReal) = m ((c : Thread nD τ).loc main_arg8) := by
  show StableHlo.after hostOps0 (fun b => m (c, b)) (Proc.devRef .tc main_v7) = _
  after_results; rfl

/-! ## The bands of the wide matrices are the weight arguments -/

theorem band_wz (c : Dev nD) :
    (fun i : S512x256.Idx => bandWm (entry m c main_v4) 0 (by omega) (i 0) (i 1)) = m ((c : Thread nD τ).loc main_arg3) := by
  funext i
  obtain ⟨a, b, rfl⟩ : ∃ (a : Fin 512) (b : Fin 256), i = ix2 a b := ⟨i 0, i 1, eq_ix2 i⟩
  show (entry m c main_v4 : S512x768.Idx → EReal) (ix2 a (⟨0 + b.val, by have := b.isLt; omega⟩ : Fin 768)) = _
  rw [entry_wide_m]
  exact concatenate_apply_piece (t := S512x768) (1 : Fin 2) [⟨S512x256, m ((c : Thread nD τ).loc main_arg3)⟩, ⟨S512x256, m ((c : Thread nD τ).loc main_arg5)⟩, ⟨S512x256, m ((c : Thread nD τ).loc main_arg7)⟩]
    concatenates_S512x256_S512x256_S512x256_S512x768_d1 (ix2 a (⟨0 + b.val, by have := b.isLt; omega⟩ : Fin 768)) 0 (by simp) S512x256 _ rfl rfl 0 rfl (ix2 a b)
    (fun b' hb' => by
      match b' with
      | ⟨0, _⟩ => rfl
      | ⟨1, _⟩ => exact absurd rfl hb') rfl

theorem band_wr (c : Dev nD) :
    (fun i : S512x256.Idx => bandWm (entry m c main_v4) 256 (by omega) (i 0) (i 1)) = m ((c : Thread nD τ).loc main_arg5) := by
  funext i
  obtain ⟨a, b, rfl⟩ : ∃ (a : Fin 512) (b : Fin 256), i = ix2 a b := ⟨i 0, i 1, eq_ix2 i⟩
  show (entry m c main_v4 : S512x768.Idx → EReal) (ix2 a (⟨256 + b.val, by have := b.isLt; omega⟩ : Fin 768)) = _
  rw [entry_wide_m]
  exact concatenate_apply_piece (t := S512x768) (1 : Fin 2) [⟨S512x256, m ((c : Thread nD τ).loc main_arg3)⟩, ⟨S512x256, m ((c : Thread nD τ).loc main_arg5)⟩, ⟨S512x256, m ((c : Thread nD τ).loc main_arg7)⟩]
    concatenates_S512x256_S512x256_S512x256_S512x768_d1 (ix2 a (⟨256 + b.val, by have := b.isLt; omega⟩ : Fin 768)) 1 (by simp) S512x256 _ rfl rfl 256 rfl (ix2 a b)
    (fun b' hb' => by
      match b' with
      | ⟨0, _⟩ => rfl
      | ⟨1, _⟩ => exact absurd rfl hb') rfl

theorem band_w (c : Dev nD) :
    (fun i : S512x256.Idx => bandWm (entry m c main_v4) 512 (by omega) (i 0) (i 1)) = m ((c : Thread nD τ).loc main_arg7) := by
  funext i
  obtain ⟨a, b, rfl⟩ : ∃ (a : Fin 512) (b : Fin 256), i = ix2 a b := ⟨i 0, i 1, eq_ix2 i⟩
  show (entry m c main_v4 : S512x768.Idx → EReal) (ix2 a (⟨512 + b.val, by have := b.isLt; omega⟩ : Fin 768)) = _
  rw [entry_wide_m]
  exact concatenate_apply_piece (t := S512x768) (1 : Fin 2) [⟨S512x256, m ((c : Thread nD τ).loc main_arg3)⟩, ⟨S512x256, m ((c : Thread nD τ).loc main_arg5)⟩, ⟨S512x256, m ((c : Thread nD τ).loc main_arg7)⟩]
    concatenates_S512x256_S512x256_S512x256_S512x768_d1 (ix2 a (⟨512 + b.val, by have := b.isLt; omega⟩ : Fin 768)) 2 (by simp) S512x256 _ rfl rfl 512 rfl (ix2 a b)
    (fun b' hb' => by
      match b' with
      | ⟨0, _⟩ => rfl
      | ⟨1, _⟩ => exact absurd rfl hb') rfl

theorem band_uz (c : Dev nD) :
    (fun i : S256x256.Idx => bandUh (entry m c main_v6) 0 (by omega) (i 0) (i 1)) = m ((c : Thread nD τ).loc main_arg4) := by
  funext i
  obtain ⟨a, b, rfl⟩ : ∃ (a : Fin 256) (b : Fin 256), i = ix2 a b := ⟨i 0, i 1, eq_ix2 i⟩
  show (entry m c main_v6 : S256x512.Idx → EReal) (ix2 a (⟨0 + b.val, by have := b.isLt; omega⟩ : Fin 512)) = _
  rw [entry_wide_h]
  exact concatenate_apply_piece (t := S256x512) (1 : Fin 2) [⟨S256x256, m ((c : Thread nD τ).loc main_arg4)⟩, ⟨S256x256, m ((c : Thread nD τ).loc main_arg6)⟩]
    concatenates_S256x256_S256x256_S256x512_d1 (ix2 a (⟨0 + b.val, by have := b.isLt; omega⟩ : Fin 512)) 0 (by simp) S256x256 _ rfl rfl 0 rfl (ix2 a b)
    (fun b' hb' => by
      match b' with
      | ⟨0, _⟩ => rfl
      | ⟨1, _⟩ => exact absurd rfl hb') rfl

theorem band_ur (c : Dev nD) :
    (fun i : S256x256.Idx => bandUh (entry m c main_v6) 256 (by omega) (i 0) (i 1)) = m ((c : Thread nD τ).loc main_arg6) := by
  funext i
  obtain ⟨a, b, rfl⟩ : ∃ (a : Fin 256) (b : Fin 256), i = ix2 a b := ⟨i 0, i 1, eq_ix2 i⟩
  show (entry m c main_v6 : S256x512.Idx → EReal) (ix2 a (⟨256 + b.val, by have := b.isLt; omega⟩ : Fin 512)) = _
  rw [entry_wide_h]
  exact concatenate_apply_piece (t := S256x512) (1 : Fin 2) [⟨S256x256, m ((c : Thread nD τ).loc main_arg4)⟩, ⟨S256x256, m ((c : Thread nD τ).loc main_arg6)⟩]
    concatenates_S256x256_S256x256_S256x512_d1 (ix2 a (⟨256 + b.val, by have := b.isLt; omega⟩ : Fin 512)) 1 (by simp) S256x256 _ rfl rfl 256 rfl (ix2 a b)
    (fun b' hb' => by
      match b' with
      | ⟨0, _⟩ => rfl
      | ⟨1, _⟩ => exact absurd rfl hb') rfl

end Cert.KernelIdeal.Entry

end
-- ==== Proof.KernelResult.lean ====
/-
  The program's run, with its result named: every fair execution ends without a fault, the result array holds the
  gated recurrent update of the nine arguments, and the arguments are unchanged.

  The launch leaves the row-by-row update of the arrays it found; those arrays are the arguments laid out as rows
  and the weight matrices set side by side, whose bands are the weight arguments themselves; and the reshape after
  the launch lays the rows back out.  That is the specification's result, term for term.
-/
import proofs.«106987_j28028956573797_2_alg».proof.Proof.KernelValue
import proofs.«106987_j28028956573797_2_alg».proof.Proof.KernelEntry
import proofs.«106987_j28028956573797_2_alg».proof.Proof.Spec

noncomputable section

namespace Cert.KernelIdeal.Result

open Cert.KernelIdeal Cert.KernelIdeal.Gen Cert.KernelIdeal.Frame Cert.KernelIdeal.Payload Cert.KernelIdeal.Launched Cert.KernelIdeal.Entry
open Idealize.ShloMosaic Idealize.ShloMosaic.TcCoe Idealize.ShloMosaic.ValueIdx Idealize.SL.Sem

variable (m : (ℓ : Loc nD τ sig) → Buf (Elt Ideal) ℓ) (ρ : Dev nD → PrngReg)

/-- The update of the arrays the launch finds, laid back out, is the specification's result of the arguments. -/
theorem launched_is_result (c : Dev nD) :
    shapeCast S64x1024x256 (launched m c) shapeCasts_S65536x256_S64x1024x256
      = Cert.Gru.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold launched
  rw [entry_state, entry_message, entry_mask, band_wz, band_uz, band_wr, band_ur, band_w, entry_u]
  rfl

/-- The run of the program at the ideal values, its result named. -/
theorem run : θ_run (defs (F := Ideal)) (onTc (τ := τ) (main (F := Ideal))) ⟨m, fun _ => 0, ρ⟩ (fun r => ∀ c : Dev nD,
      r.2.mem ((c.tc : Thread nD τ).loc main_v9) = Cert.Gru.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v9 (Pipeline.mem_restRefs_of main_v9 (by decide) (by decide))).trans ((program_result m c).trans (launched_is_result m c)),
     ((h c).2 main_arg0 (Pipeline.mem_restRefs_of main_arg0 (by decide) (by decide))).trans (final_arg m (dats m) c main_arg0 (by simp)),
     ((h c).2 main_arg1 (Pipeline.mem_restRefs_of main_arg1 (by decide) (by decide))).trans (final_arg m (dats m) c main_arg1 (by simp)),
     ((h c).2 main_arg2 (Pipeline.mem_restRefs_of main_arg2 (by decide) (by decide))).trans (final_arg m (dats m) c main_arg2 (by simp)),
     ((h c).2 main_arg3 (Pipeline.mem_restRefs_of main_arg3 (by decide) (by decide))).trans (final_arg m (dats m) c main_arg3 (by simp)),
     ((h c).2 main_arg4 (Pipeline.mem_restRefs_of main_arg4 (by decide) (by decide))).trans (final_arg m (dats m) c main_arg4 (by simp)),
     ((h c).2 main_arg5 (Pipeline.mem_restRefs_of main_arg5 (by decide) (by decide))).trans (final_arg m (dats m) c main_arg5 (by simp)),
     ((h c).2 main_arg6 (Pipeline.mem_restRefs_of main_arg6 (by decide) (by decide))).trans (final_arg m (dats m) c main_arg6 (by simp)),
     ((h c).2 main_arg7 (Pipeline.mem_restRefs_of main_arg7 (by decide) (by decide))).trans (final_arg m (dats m) c main_arg7 (by simp)),
     ((h c).2 main_arg8 (Pipeline.mem_restRefs_of main_arg8 (by decide) (by decide))).trans (final_arg m (dats m) c main_arg8 (by simp))⟩)
    (run_main (F := Ideal) m ρ)

end Cert.KernelIdeal.Result

end
-- ==== Proof.RefValue.lean ====
import proofs.«106987_j28028956573797_2_alg».proof.Defs
import proofs.«106987_j28028956573797_2_alg».proof.Proof.Gen.ReferenceIdeal.Read
import proofs.«106987_j28028956573797_2_alg».proof.Proof.Spec
import proofs.«106987_j28028956573797_2_alg».proof.Proof.LibPlainDot
import proofs.«106987_j28028956573797_2_alg».proof.Proof.LibColumn
import Idealize.ShloMosaic.Lib.ValueIdx
import Idealize.ShloMosaic.Lib.Pipeline.Value
import Idealize.ShloMosaic.PureOps.Ideal.Laws
import Idealize.ShloMosaic.PureOps.IdealRules

/-!
  The reference program's value is the gated recurrent update of the specification.

  The reference lays the 64 × 1024 node states out as 65536 rows, forms both gates as
  1 / (1 + exp (−(m·A + h·B))), the candidate as tanh (m·W + (r ⊙ h)·U), mixes
  (1 − z) ⊙ h + z ⊙ h', scales every row by its mask entry, and lays the rows back out.
  Read at one entry (p, q) of the 65536 × 256 array, every one of these operations is the
  corresponding scalar operation on the entries it reads, and each matrix product is the plain
  sum over the contracted coordinate; so entry (p, q) is, term for term, the specification's
  cell of row p at column q. The only fact used beyond unfolding is that the logistic
  function is by definition 1 / (1 + exp (−x)) with the number one, which the reference
  writes as the single-precision pattern of 1.0.
-/

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open scoped BigOperators

/-- The single-precision pattern of 1.0 denotes the extended real one. -/
theorem one_eq : Cert.Gru.one = 1 := IdealRules.sign_bit.ideal_onePat .f32

/-- The array of ones: the scalar constant 1.0 repeated over the 65536 × 256 entries. -/
abbrev ones : FVec Ideal S65536x256 .f32 :=
  broadcastInDim S65536x256 ![] bcast_S_S65536x256 (constant (F := Ideal) S_ .f32 0x3F800000#32)

/-- Every entry of the array of ones is the pattern of 1.0. -/
theorem ones_apply (j : S65536x256.Idx) : ones j = Cert.Gru.one :=
  broadcastInDim_apply _ bcast_S_S65536x256 (constant (F := Ideal) S_ .f32 0x3F800000#32) j (fun a => a.elim0)
    (fun a => a.elim0)

/-- A gate of the reference, as an array: 1 / (1 + exp (−(M·A + H·B))), entry by entry. -/
abbrev gateArr (M : FVec Ideal S65536x512 .f32) (H : FVec Ideal S65536x256 .f32)
    (A : FVec Ideal S512x256 .f32) (B : FVec Ideal S256x256 .f32) : FVec Ideal S65536x256 .f32 :=
  Host.divf ones (addf ones (Host.exp (Host.negf (addf
    (Host.dotGeneral dot_S65536x512_S512x256_S65536x256_1_0_0_1_n_n none M A)
    (Host.dotGeneral dot_S65536x256_S256x256_S65536x256_1_0_0_1_n_n none H B)))))

/-- Entry (p, q) of the product of the messages by a 512 × 256 matrix: the sum over the 512 message coordinates. -/
theorem dotM_apply (M : FVec Ideal S65536x512 .f32) (A : FVec Ideal S512x256 .f32) (p : Fin 65536) (q : Fin 256) :
    Host.dotGeneral dot_S65536x512_S512x256_S65536x256_1_0_0_1_n_n none M A (ix2 p q)
      = ∑ k : Fin 512, M (ix2 p k) * A (ix2 k q) :=
  Cert.LibPlainDot.dotGeneral_plain_apply dot_S65536x512_S512x256_S65536x256_1_0_0_1_n_n rfl none M A p q

/-- Entry (p, q) of the product of a 65536 × 256 array by a 256 × 256 matrix: the sum over the 256 state coordinates. -/
theorem dotH_apply (H : FVec Ideal S65536x256 .f32) (B : FVec Ideal S256x256 .f32) (p : Fin 65536) (q : Fin 256) :
    Host.dotGeneral dot_S65536x256_S256x256_S65536x256_1_0_0_1_n_n none H B (ix2 p q)
      = ∑ k : Fin 256, H (ix2 p k) * B (ix2 k q) :=
  Cert.LibPlainDot.dotGeneral_plain_apply dot_S65536x256_S256x256_S65536x256_1_0_0_1_n_n rfl none H B p q

/-- Entry (p, q) of a gate array is the specification's gate of row p at column q: the reference's
    1 / (1 + exp (−x)) is the logistic function of x, once its two ones are read as the number one. -/
theorem gateArr_apply (M : FVec Ideal S65536x512 .f32) (H : FVec Ideal S65536x256 .f32)
    (A : FVec Ideal S512x256 .f32) (B : FVec Ideal S256x256 .f32) (p : Fin 65536) (q : Fin 256) :
    gateArr M H A B (ix2 p q)
      = Cert.Gru.gate (fun k => M (ix2 p k)) (fun k => H (ix2 p k)) (fun k q => A (ix2 k q)) (fun k q => B (ix2 k q)) q := by
  show Ideal.div (ones (ix2 p q)) (ones (ix2 p q) + Ideal.exp (-(
      Host.dotGeneral dot_S65536x512_S512x256_S65536x256_1_0_0_1_n_n none M A (ix2 p q)
      + Host.dotGeneral dot_S65536x256_S256x256_S65536x256_1_0_0_1_n_n none H B (ix2 p q)))) = _
  rw [ones_apply, one_eq, dotM_apply, dotH_apply]
  rfl

/-- Entry (p, q) of the mask column repeated along the 256 columns is the column's entry of row p. -/
theorem maskArr_apply (K : FVec Ideal S65536x1 .f32) (p : Fin 65536) (q : Fin 256) :
    broadcastInDim S65536x256 ![0, 1] bcast_S65536x1_S65536x256_0_1 K (ix2 p q) = K (ix2 p (0 : Fin 1)) :=
  broadcastInDim_apply _ bcast_S65536x1_S65536x256_0_1 K (ix2 p q) (ix2 p (0 : Fin 1)) (fun a => match a with
    | ⟨0, _⟩ => by show p.val = if (65536 : Nat) = 1 then 0 else p.val; rw [if_neg (by decide)]
    | ⟨1, _⟩ => by show 0 = if (1 : Nat) = 1 then 0 else q.val; rw [if_pos rfl])

/-- The reference's 65536 × 256 array before it is laid back out, as a function of the three re-laid arrays
    H (states), M (messages), K (mask column) and the six weights: entry (p, q) is the specification's cell of
    row p at column q. The update gate uses the first pair of weights, the reset gate the second, the candidate
    the third; in the candidate the second product is taken of the array r ⊙ H, whose entry (p, k) is the reset
    gate of row p at k times H (p, k). -/
theorem rows_eq (H : FVec Ideal S65536x256 .f32) (M : FVec Ideal S65536x512 .f32) (K : FVec Ideal S65536x1 .f32)
    (Wz : FVec Ideal S512x256 .f32) (Uz : FVec Ideal S256x256 .f32) (Wr : FVec Ideal S512x256 .f32)
    (Ur : FVec Ideal S256x256 .f32) (W : FVec Ideal S512x256 .f32) (U : FVec Ideal S256x256 .f32) :
    mulf (addf (mulf (subf ones (gateArr M H Wz Uz)) H)
        (mulf (gateArr M H Wz Uz)
          (Host.tanh (addf (Host.dotGeneral dot_S65536x512_S512x256_S65536x256_1_0_0_1_n_n none M W)
            (Host.dotGeneral dot_S65536x256_S256x256_S65536x256_1_0_0_1_n_n none (mulf (gateArr M H Wr Ur) H) U)))))
      (broadcastInDim S65536x256 ![0, 1] bcast_S65536x1_S65536x256_0_1 K)
      = Cert.Gru.rows 65536 H M K Wz Uz Wr Ur W U := by
  funext j
  obtain ⟨p, q, rfl⟩ : ∃ (p : Fin 65536) (q : Fin 256), j = ix2 p q := ⟨j 0, j 1, eq_ix2 j⟩
  rw [Cert.Gru.rows_apply]
  unfold Cert.Gru.cell
  show ((ones (ix2 p q) - gateArr M H Wz Uz (ix2 p q)) * H (ix2 p q)
      + gateArr M H Wz Uz (ix2 p q)
        * Ideal.tanh (Host.dotGeneral dot_S65536x512_S512x256_S65536x256_1_0_0_1_n_n none M W (ix2 p q)
          + Host.dotGeneral dot_S65536x256_S256x256_S65536x256_1_0_0_1_n_n none (mulf (gateArr M H Wr Ur) H) U (ix2 p q)))
      * broadcastInDim S65536x256 ![0, 1] bcast_S65536x1_S65536x256_0_1 K (ix2 p q) = _
  rw [ones_apply, gateArr_apply, dotM_apply, dotH_apply, maskArr_apply]
  simp only [mulf_apply, gateArr_apply]

/-- The reference's result, as a function of its nine argument arrays, is the specification's result: both lay
    the same 65536 × 256 array back out as 64 × 1024 × 256, and that array is the same function of the same three
    re-laid arguments by `rows_eq`. -/
theorem result_eq (a0 : FVec Ideal S64x1024x256 .f32) (a1 : FVec Ideal S64x1024x512 .f32) (a2 : FVec Ideal S64x1024 .f32)
    (a3 : FVec Ideal S512x256 .f32) (a4 : FVec Ideal S256x256 .f32) (a5 : FVec Ideal S512x256 .f32)
    (a6 : FVec Ideal S256x256 .f32) (a7 : FVec Ideal S512x256 .f32) (a8 : FVec Ideal S256x256 .f32) :
    shapeCast _ (mulf (addf (mulf (subf (broadcastInDim S65536x256 ![] bcast_S_S65536x256 (constant (F := Ideal) S_ .f32 0x3F800000#32)) (Host.divf (broadcastInDim S65536x256 ![] bcast_S_S65536x256 (constant (F := Ideal) S_ .f32 0x3F800000#32)) (addf (broadcastInDim S65536x256 ![] bcast_S_S65536x256 (constant (F := Ideal) S_ .f32 0x3F800000#32)) (Host.exp (Host.negf (addf (Host.dotGeneral dot_S65536x512_S512x256_S65536x256_1_0_0_1_n_n none (shapeCast _ a1 shapeCasts_S64x1024x512_S65536x512) a3) (Host.dotGeneral dot_S65536x256_S256x256_S65536x256_1_0_0_1_n_n none (shapeCast _ a0 shapeCasts_S64x1024x256_S65536x256) a4))))))) (shapeCast _ a0 shapeCasts_S64x1024x256_S65536x256)) (mulf (Host.divf (broadcastInDim S65536x256 ![] bcast_S_S65536x256 (constant (F := Ideal) S_ .f32 0x3F800000#32)) (addf (broadcastInDim S65536x256 ![] bcast_S_S65536x256 (constant (F := Ideal) S_ .f32 0x3F800000#32)) (Host.exp (Host.negf (addf (Host.dotGeneral dot_S65536x512_S512x256_S65536x256_1_0_0_1_n_n none (shapeCast _ a1 shapeCasts_S64x1024x512_S65536x512) a3) (Host.dotGeneral dot_S65536x256_S256x256_S65536x256_1_0_0_1_n_n none (shapeCast _ a0 shapeCasts_S64x1024x256_S65536x256) a4)))))) (Host.tanh (addf (Host.dotGeneral dot_S65536x512_S512x256_S65536x256_1_0_0_1_n_n none (shapeCast _ a1 shapeCasts_S64x1024x512_S65536x512) a7) (Host.dotGeneral dot_S65536x256_S256x256_S65536x256_1_0_0_1_n_n none (mulf (Host.divf (broadcastInDim S65536x256 ![] bcast_S_S65536x256 (constant (F := Ideal) S_ .f32 0x3F800000#32)) (addf (broadcastInDim S65536x256 ![] bcast_S_S65536x256 (constant (F := Ideal) S_ .f32 0x3F800000#32)) (Host.exp (Host.negf (addf (Host.dotGeneral dot_S65536x512_S512x256_S65536x256_1_0_0_1_n_n none (shapeCast _ a1 shapeCasts_S64x1024x512_S65536x512) a5) (Host.dotGeneral dot_S65536x256_S256x256_S65536x256_1_0_0_1_n_n none (shapeCast _ a0 shapeCasts_S64x1024x256_S65536x256) a6)))))) (shapeCast _ a0 shapeCasts_S64x1024x256_S65536x256)) a8))))) (broadcastInDim S65536x256 ![0, 1] bcast_S65536x1_S65536x256_0_1 (shapeCast _ a2 shapeCasts_S64x1024_S65536x1))) shapeCasts_S65536x256_S64x1024x256
      = Cert.Gru.result a0 a1 a2 a3 a4 a5 a6 a7 a8 :=
  congrArg (fun X => shapeCast S64x1024x256 X shapeCasts_S65536x256_S64x1024x256)
    (rows_eq (shapeCast _ a0 shapeCasts_S64x1024x256_S65536x256) (shapeCast _ a1 shapeCasts_S64x1024x512_S65536x512)
      (shapeCast _ a2 shapeCasts_S64x1024_S65536x1) a3 a4 a5 a6 a7 a8)

/-- On every device, from any memory with zero counters: every weakly fair execution of the reference terminates
    with its result the specification's gated recurrent update of the arguments' launch contents, and the
    arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v33) = Cert.Gru.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run _ _ _).mono (fun _ h c => ⟨(h c).1.trans (result_eq _ _ _ _ _ _ _ _ _), (h c).2⟩)
    (Cert.ReferenceIdeal.Value.run (F := Ideal) m ρ)

end Cert.ReferenceIdeal.RefValue

end
-- ==== Proof.lean ====
/-
  A gated recurrent update of 64 × 1024 node states, computed by a kernel over blocks of 2048 rows with its weight
  matrices fused side by side, against the plain formulation with six separate matrix products.

  Both programs compute, for every row,  z = σ(m·Wz + h·Uz),  r = σ(m·Wr + h·Ur),  h' = tanh(m·W + (r ⊙ h)·U)  and the
  new state ((1 − z) ⊙ h + z ⊙ h')·κ, with κ the row's mask entry.  The kernel multiplies the message rows once by
  [Wz | Wr | W] and the state rows once by [Uz | Ur] and cuts the products into bands of 256 columns; a band of a
  product is the product with the band of the matrix, and the bands of the fused matrices are the matrices that
  were fused.  The reference writes the logistic function σ out as 1 / (1 + exp(−x)), which is its definition.  At
  the ideal values a change of float format is the identity, so the two results are the same expression of the
  arguments, entry by entry; no rearrangement of sums is involved and finiteness of the inputs is not used.

  The three frames: the kernel's program (at the machine's words and at the ideal values) runs to its end, faults
  nowhere and leaves its arguments alone, by the run of its one launch; the reference is a straight line of host
  operations.  The idealization rewrote nothing, so there is nothing to preserve.
-/
import proofs.«106987_j28028956573797_2_alg».proof.Defs
import proofs.«106987_j28028956573797_2_alg».proof.Proof.Gen.Kernel
import proofs.«106987_j28028956573797_2_alg».proof.Proof.Gen.KernelIdeal
import proofs.«106987_j28028956573797_2_alg».proof.Proof.Gen.ReferenceIdeal
import proofs.«106987_j28028956573797_2_alg».proof.Proof.Gen.Pre_finite_inputs
import proofs.«106987_j28028956573797_2_alg».proof.Proof.KernelFrame
import proofs.«106987_j28028956573797_2_alg».proof.Proof.KernelResult
import proofs.«106987_j28028956573797_2_alg».proof.Proof.RefValue
import Idealize.ShloMosaic.Adequacy
import Idealize.ShloMosaic.Init

noncomputable section

namespace Cert.Proof

open Idealize.ShloMosaic Idealize.SL.Sem

/-- The kernel's program, read at the machine's words, runs to its end and leaves its arguments as they were. -/
theorem frame_kernel : Cert.frame_Kernel := fun m ρ _ => Cert.Kernel.Frame.frame (F := Bits) m ρ

/-- The same program read at the ideal values. -/
theorem frame_ideal : Cert.frame_KernelIdeal := fun m ρ _ => Cert.KernelIdeal.Frame.frame (F := Ideal) m ρ

/-- The reference runs to its end and leaves its arguments as they were: its run, the result forgotten. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments, both programs end with the gated recurrent update of the arguments
    in their result arrays: the kernel's by the launch's blocks, the reference's by its host operations. -/
theorem algebraic : Cert.algebraic_KernelIdeal_ReferenceIdeal := by
  intro m ρ m' ρ' _ hagree
  refine ⟨fun c => Cert.Gru.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Result.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
